-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x4096 .f32) (main_arg1 : FVec F S4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x4096 : Shape := ⟨3, ![4, 4096, 4096]⟩
abbrev S4096x4096 : Shape := ⟨2, ![4096, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .hbm, ⟨6, _⟩ => ⟨S4x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S4x4096x4096 : S16384x4096.ShapeCasts S4x4096x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.TileProduct.lean ====
/-
  One tile step of the blocked product.

  At a grid point the body holds a [2048, 1024] tile `a` of the left matrix, a [1024, 1024] tile `b` of the right
  matrix and the running [2048, 1024] tile `acc` of the result.  It leaves `acc + a · bᵀ`: at the entry `(p, q)`
  the running value plus the sum over the 1024 shared columns `d` of `a (p, d) * b (q, d)` — both operands are
  contracted along their SECOND axis, so the right tile is read by its row `q`.  On the extended reals the product
  into a zero accumulator is exactly that sum, and the change of float format of the operands is the identity.
-/
import proofs.«137915_j21577915695486_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileProduct

open Cert.KernelIdeal Cert.KernelIdeal.Gen Idealize.ShloMosaic Idealize.ShloMosaic.ValueIdx
open scoped BigOperators

/-- The dimension numbers of the tile product: both operands contracted along axis 1. -/
abbrev dims : DotDims S2048x1024 S1024x1024 S2048x1024 := dot_S2048x1024_S1024x1024_S2048x1024_1_1_0_0_n_n

/-- The left operand's row is the result's row. -/
theorem lhs_row (i : S2048x1024.Idx) (k : dims.contr.Idx) : (dims.lhsIdx i k 0).val = (i 0).val := by
  unfold DotDims.lhsIdx
  rw [dif_neg (show ¬(0 : Fin S2048x1024.rank) ∈ dims.lhsBatch by decide),
    dif_pos (show (0 : Fin S2048x1024.rank) ∈ dims.lhsNonContracting by decide)]
  rfl

/-- The left operand's column is the contracted coordinate. -/
theorem lhs_col (i : S2048x1024.Idx) (k : dims.contr.Idx) : (dims.lhsIdx i k 1).val = (k ⟨0, by decide⟩).val :=
  dims.lhsIdx_val_of_single rfl i k

/-- The right operand's ROW is the result's column. -/
theorem rhs_row (i : S2048x1024.Idx) (k : dims.contr.Idx) : (dims.rhsIdx i k 0).val = (i 1).val := by
  unfold DotDims.rhsIdx
  rw [dif_neg (show ¬(0 : Fin S1024x1024.rank) ∈ dims.rhsBatch by decide),
    dif_pos (show (0 : Fin S1024x1024.rank) ∈ dims.rhsNonContracting by decide)]
  rfl

/-- The right operand's column is the contracted coordinate. -/
theorem rhs_col (i : S2048x1024.Idx) (k : dims.contr.Idx) : (dims.rhsIdx i k 1).val = (k ⟨0, by decide⟩).val :=
  dims.rhsIdx_val_of_single rfl i k

/-- The product of the two tiles into a zero accumulator, at an entry: `∑ d, a (p, d) * b (q, d)`. -/
theorem product_entry (a : FVec Ideal S2048x1024 .bf16) (b : FVec Ideal S1024x1024 .bf16) (p : Fin 2048) (q : Fin 1024) :
    matmul dims none a b (constant (F := Ideal) S2048x1024 .f32 0x00000000#32) (ix2 p q)
      = ∑ d : Fin 1024, a (ix2 p d) * b (ix2 q d) := by
  refine (Ideal.matmul_constant_zero_apply dims none a b (ix2 p q)).trans ?_
  rw [← Equiv.sum_comp (contrEquiv1 dims 1024 rfl rfl).symm]
  refine Finset.sum_congr rfl fun d _ => ?_
  have hd := contrEquiv1_symm_val dims 1024 rfl rfl d
  have el : dims.lhsIdx (ix2 p q) ((contrEquiv1 dims 1024 rfl rfl).symm d) = ix2 p d := funext fun ax => Fin.ext (by
    match ax with
    | ⟨0, _⟩ => exact lhs_row _ _
    | ⟨1, _⟩ => exact (lhs_col _ _).trans hd)
  have er : dims.rhsIdx (ix2 p q) ((contrEquiv1 dims 1024 rfl rfl).symm d) = ix2 q d := funext fun ax => Fin.ext (by
    match ax with
    | ⟨0, _⟩ => exact rhs_row _ _
    | ⟨1, _⟩ => exact (rhs_col _ _).trans hd)
  rw [el, er]

/-- The body's stored value at an entry: the running value plus the tile product's entry. -/
theorem step_entry (acc : Vec Ideal S2048x1024 .f32) (a : Vec Ideal S2048x1024 .bf16) (b : Vec Ideal S1024x1024 .bf16)
    (p : Fin 2048) (q : Fin 1024) :
    k0_pay2 (F := Ideal) acc a b (ix2 p q) = acc (ix2 p q) + ∑ d : Fin 1024, a (ix2 p d) * b (ix2 q d) := by
  unfold k0_pay2
  simp only [shapeCast_self]
  exact congrArg (acc (ix2 p q) + ·) (product_entry a b p q)

/-- The block the first point of a row of points stores before accumulating: zero everywhere. -/
theorem zero_entry (y : S2048x1024.Idx) : k0_pay1 (F := Ideal) y = 0 := by
  unfold k0_pay1
  exact Ideal.ofBits_zero_f32

end Cert.KernelIdeal.TileProduct

end
-- ==== Proof.Pieces.lean ====
/-
  What the body leaves in the result's staging buffer, in each of its two control cases.

  The body first clears the running tile when the point is the first of its row of points along the contracted axis,
  then reads the running tile, the left tile and the right tile, and stores the one value `running + left · rightᵀ`
  over the whole buffer.  So in the clearing case the buffer ends at that value of the zero tile, and in the other
  case at that value of what the buffer held before.  Each store covers the whole buffer and each load reads a whole
  buffer, which is all these two lemmas use; they hold at every float instance.
-/
import proofs.«137915_j21577915695486_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The offsets of every load and store of the body are zero. -/
theorem offsets_zero : (![0, 0] : Fin 2 → Nat) = fun _ => 0 := funext fun a => by fin_cases a <;> rfl

/-- A point that does not clear: over a buffer holding `acc` the body leaves `acc + left · rightᵀ`. -/
theorem accumulate (c : Dev nD) (i : grid0.Coords) (arg3 : Memref sig .tc .vmem S2048x1024 .bf16) (harg3 : arg3.IsWhole)
    (arg4 : Memref sig .tc .vmem S1024x1024 .bf16) (harg4 : arg4.IsWhole) (arg5 : Memref sig .tc .vmem S2048x1024 .f32)
    (harg5 : arg5.IsWhole) (hc : ¬cond0_0 i) (left : Vec F S2048x1024 .bf16) (right : Vec F S1024x1024 .bf16)
    (acc : Vec F S2048x1024 .f32) :
    out0_B_2 c i arg3 harg3 arg4 harg4 arg5 harg5 hc left right acc = k0_pay2 acc left right := by
  unfold out0_B_2
  rw [View.read_writes_eq_canon _ _ _ (cover0_B_2 c i arg3 harg3 arg4 harg4 arg5 harg5 hc left right acc)]
  unfold kernelRun0_B
  dsimp only
  rw [View.canon_unit_zero offsets_zero]
  simp only [View.readAt_eq_ld, harg3.read_unread, harg4.read_unread, harg5.read_unread,
    View.ld_unit_zero (S := S2048x1024) offsets_zero, View.ld_unit_zero (S := S1024x1024) offsets_zero]

/-- A point that clears: the body stores the zero tile, reads it back, and leaves `0 + left · rightᵀ`. -/
theorem clear_then_accumulate (c : Dev nD) (i : grid0.Coords) (arg3 : Memref sig .tc .vmem S2048x1024 .bf16)
    (harg3 : arg3.IsWhole) (arg4 : Memref sig .tc .vmem S1024x1024 .bf16) (harg4 : arg4.IsWhole)
    (arg5 : Memref sig .tc .vmem S2048x1024 .f32) (harg5 : arg5.IsWhole) (hc : cond0_0 i)
    (left : Vec F S2048x1024 .bf16) (right : Vec F S1024x1024 .bf16) :
    out0_A_2 c i arg3 harg3 arg4 harg4 arg5 harg5 hc left right = k0_pay2 (k0_pay1 (F := F)) left right := by
  unfold out0_A_2
  rw [View.read_writes_eq_canon _ _ _ (cover0_A_2 c i arg3 harg3 arg4 harg4 arg5 harg5 hc left right)]
  unfold kernelRun0_A
  dsimp only
  sl_unfold_words
  rw [View.canon_cons_unit_zero (S := S2048x1024) offsets_zero, View.readCov_unit_zero (S := S2048x1024) _ offsets_zero]
  simp only [View.readAt_eq_ld, harg3.read_unread, harg4.read_unread, View.ld_unit_zero (S := S2048x1024) offsets_zero,
    View.ld_unit_zero (S := S1024x1024) offsets_zero]

end Cert.KernelIdeal.Pieces

end
-- ==== Proof.BlockedContraction.lean ====
/-
  A contraction computed in blocks of 1024 terms.

  Two matrices `A : [a, n]` and `B : [b, n]` of extended reals are contracted along their second axis: the entry
  `(r, e)` of the result is `∑ d, A (r, d) * B (e, d)` (that is `A · Bᵀ`).  A blocked computation cuts the contracted axis
  into consecutive blocks of 1024 terms and adds the blocks' partial sums one after the other into a running value that
  starts at zero.  After `k` blocks the running value is the sum of the first `1024 * k` terms (`partialSum`); one more
  block extends the range by 1024 terms (`partialSum_succ`).  Only associativity and commutativity of `+` are used, and
  the extended reals are a commutative additive monoid, so nothing here asks a term to be finite.

  The matrices are read at natural-number coordinates through `at2` (zero outside the matrix), so that a block's
  offset is plain arithmetic; inside the matrix `at2` is the entry (`at2_of_lt`).
-/
import Idealize.ShloMosaic.Lib.ValueIdx
import Mathlib.Algebra.BigOperators.Intervals

noncomputable section

namespace Cert.BlockedContraction

open Idealize.ShloMosaic Idealize.ShloMosaic.ValueIdx
open scoped BigOperators

/-- An `[a, b]` matrix read at natural-number coordinates: its entry inside the matrix, zero outside. -/
def at2 {a b : ℕ} (A : (⟨2, ![a, b]⟩ : Shape).Idx → EReal) (r d : ℕ) : EReal :=
  if h : r < a ∧ d < b then A (ix2 ⟨r, h.1⟩ ⟨d, h.2⟩) else 0

/-- Inside the matrix `at2` reads the entry. -/
theorem at2_of_lt {a b : ℕ} (A : (⟨2, ![a, b]⟩ : Shape).Idx → EReal) (r : Fin a) (d : Fin b) :
    at2 A r.val d.val = A (ix2 r d) := by
  unfold at2
  rw [dif_pos ⟨r.isLt, d.isLt⟩]

/-- The first `len` terms of the contraction of row `r` of `A` with row `e` of `B`. -/
def prefixSum {a b n : ℕ} (A : (⟨2, ![a, n]⟩ : Shape).Idx → EReal) (B : (⟨2, ![b, n]⟩ : Shape).Idx → EReal)
    (r e len : ℕ) : EReal :=
  ∑ x ∈ Finset.range len, at2 A r x * at2 B e x

/-- One more block of 1024 terms: the prefix over `1024 * (k + 1)` terms is the prefix over `1024 * k` terms plus the
    block's own sum, its terms counted from the block's offset `1024 * k`. -/
theorem prefixSum_succ {a b n : ℕ} (A : (⟨2, ![a, n]⟩ : Shape).Idx → EReal) (B : (⟨2, ![b, n]⟩ : Shape).Idx → EReal)
    (r e k : ℕ) :
    prefixSum A B r e (1024 * (k + 1))
      = prefixSum A B r e (1024 * k) + ∑ d ∈ Finset.range 1024, at2 A r (1024 * k + d) * at2 B e (1024 * k + d) := by
  unfold prefixSum
  rw [Nat.mul_succ, Finset.sum_range_add]

/-- The first block alone: the prefix over 1024 terms is the block's sum, its offset zero. -/
theorem prefixSum_first {a b n : ℕ} (A : (⟨2, ![a, n]⟩ : Shape).Idx → EReal) (B : (⟨2, ![b, n]⟩ : Shape).Idx → EReal)
    (r e : ℕ) :
    prefixSum A B r e (1024 * (0 + 1))
      = 0 + ∑ d ∈ Finset.range 1024, at2 A r (1024 * 0 + d) * at2 B e (1024 * 0 + d) := by
  rw [prefixSum_succ, show prefixSum A B r e (1024 * 0) = 0 from Finset.sum_range_zero _]

/-- The whole contraction `A · Bᵀ`, as one function of the two matrices. -/
def contract {a b n : ℕ} (A : (⟨2, ![a, n]⟩ : Shape).Idx → EReal) (B : (⟨2, ![b, n]⟩ : Shape).Idx → EReal) :
    (⟨2, ![a, b]⟩ : Shape).Idx → EReal :=
  fun y => prefixSum A B (y 0).val (y 1).val n

/-- The whole contraction at an entry is the sum over the shared axis of the products of the two rows' entries. -/
theorem contract_apply {a b n : ℕ} (A : (⟨2, ![a, n]⟩ : Shape).Idx → EReal) (B : (⟨2, ![b, n]⟩ : Shape).Idx → EReal)
    (r : Fin a) (e : Fin b) :
    contract A B (ix2 r e) = ∑ d : Fin n, A (ix2 r d) * B (ix2 e d) := by
  show prefixSum A B r.val e.val n = _
  unfold prefixSum
  rw [Finset.sum_range]
  exact Finset.sum_congr rfl fun d _ => by rw [at2_of_lt, at2_of_lt]

end Cert.BlockedContraction

end
-- ==== Proof.RunningTile.lean ====
/-
  The running tile, point by point.

  The grid has 8 × 4 × 4 points, the last coordinate moving fastest: point `n` works on the row block `n / 16` of the
  left matrix (2048 rows), the row block `n / 4 % 4` of the right matrix (1024 rows, which become the result's columns)
  and the block `n % 4` of the contracted axis (1024 terms).  The result's staging buffer is cleared at the points with
  `n % 4 = 0` and carried from point to point otherwise, so after point `n` its entry `(p, q)` is the contraction of
  row `2048 * (n / 16) + p` of the left matrix with row `1024 * (n / 4 % 4) + q` of the right matrix over the first
  `1024 * (n % 4 + 1)` terms — by induction on the point, one block of 1024 terms per step.
-/
import proofs.«137915_j21577915695486_2_alg».proof.Proof.Gen.KernelIdeal.Frame
import proofs.«137915_j21577915695486_2_alg».proof.Proof.TileProduct
import proofs.«137915_j21577915695486_2_alg».proof.Proof.Pieces
import proofs.«137915_j21577915695486_2_alg».proof.Proof.BlockedContraction

set_option maxRecDepth 16384

noncomputable section

namespace Cert.KernelIdeal.RunningTile

open Cert.KernelIdeal Cert.KernelIdeal.Gen Idealize.ShloMosaic Idealize.ShloMosaic.TcCoe Idealize.SL.Sem
open Idealize.ShloMosaic.ValueIdx Cert.BlockedContraction
open scoped BigOperators

variable (m : (ℓ : Loc nD τ sig) → Buf (Elt Ideal) ℓ)

/-- The left matrix as the region finds it: `x` with its two leading axes merged. -/
abbrev left (c : Dev nD) : (⟨2, ![16384, 4096]⟩ : Shape).Idx → EReal := V m c main_v1
/-- The right matrix as the region finds it. -/
abbrev right (c : Dev nD) : (⟨2, ![4096, 4096]⟩ : Shape).Idx → EReal := V m c main_v2

/-- The left matrix's tile at point `t`: the block its window stages there. -/
def leftTile (c : Dev nD) (t : Fin cfg0.N) : Vec Ideal S2048x1024 .bf16 := iblk m c 0 t
/-- The right matrix's tile at point `t`. -/
def rightTile (c : Dev nD) (t : Fin cfg0.N) : Vec Ideal S1024x1024 .bf16 := iblk m c 1 t

/-- The block each window is on at point `t`, decided over the grid. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The left tile at point `t`, at `(p, d)`: row `2048 * (t / 16) + p`, column `1024 * (t % 4) + d` of the left matrix. -/
theorem left_tile_entry (c : Dev nD) (t : Fin cfg0.N) (p : Fin 2048) (d : Fin 1024) :
    leftTile m c t (ix2 p d)
      = at2 (left m c) (2048 * (t.val / 16) + p.val) (1024 * (t.val % 4) + d.val) := by
  have hN : t.val < 128 := lt_of_lt_of_eq t.isLt (show cfg0.N = 128 from N_0)
  obtain ⟨e0, e1, -⟩ := block_indices t
  have hr : 2048 * (t.val / 16) + p.val < 16384 := by have := p.isLt; omega
  have hd : 1024 * (t.val % 4) + d.val < 4096 := by have := d.isLt; omega
  refine Eq.trans ?_ (at2_of_lt (left m c) ⟨_, hr⟩ ⟨_, hd⟩).symm
  unfold leftTile iblk
  rw [View.read_apply]
  show V m c main_v1 _ = V m c main_v1 _
  congr 1
  funext a
  apply Fin.ext
  match a with
  | ⟨0, _⟩ => show win0_0.index t 0 * 2048 + 1 * p.val = 2048 * (t.val / 16) + p.val; rw [e0]; omega
  | ⟨1, _⟩ => show win0_0.index t 1 * 1024 + 1 * d.val = 1024 * (t.val % 4) + d.val; rw [e1]; omega

/-- The right tile at point `t`, at `(q, d)`: row `1024 * (t / 4 % 4) + q`, column `1024 * (t % 4) + d` of the right matrix. -/
theorem right_tile_entry (c : Dev nD) (t : Fin cfg0.N) (q : Fin 1024) (d : Fin 1024) :
    rightTile m c t (ix2 q d)
      = at2 (right m c) (1024 * (t.val / 4 % 4) + q.val) (1024 * (t.val % 4) + d.val) := by
  have hN : t.val < 128 := lt_of_lt_of_eq t.isLt (show cfg0.N = 128 from N_0)
  obtain ⟨-, -, e2, e3, -⟩ := block_indices t
  have hr : 1024 * (t.val / 4 % 4) + q.val < 4096 := by have := q.isLt; omega
  have hd : 1024 * (t.val % 4) + d.val < 4096 := by have := d.isLt; omega
  refine Eq.trans ?_ (at2_of_lt (right m c) ⟨_, hr⟩ ⟨_, hd⟩).symm
  unfold rightTile iblk
  rw [View.read_apply]
  show V m c main_v2 _ = V m c main_v2 _
  congr 1
  funext a
  apply Fin.ext
  match a with
  | ⟨0, _⟩ => show win0_1.index t 0 * 1024 + 1 * q.val = 1024 * (t.val / 4 % 4) + q.val; rw [e2]; omega
  | ⟨1, _⟩ => show win0_1.index t 1 * 1024 + 1 * d.val = 1024 * (t.val % 4) + d.val; rw [e3]; omega

/-- The product of the two tiles at point `t`, at `(p, q)`: block `t % 4` of the contraction of the two rows. -/
theorem tile_product_entry (c : Dev nD) (t : Fin cfg0.N) (p : Fin 2048) (q : Fin 1024) :
    ∑ d : Fin 1024, leftTile m c t (ix2 p d) * rightTile m c t (ix2 q d)
      = ∑ d ∈ Finset.range 1024, at2 (left m c) (2048 * (t.val / 16) + p.val) (1024 * (t.val % 4) + d)
          * at2 (right m c) (1024 * (t.val / 4 % 4) + q.val) (1024 * (t.val % 4) + d) := by
  rw [Finset.sum_range]
  exact Finset.sum_congr rfl fun d _ => by rw [left_tile_entry, right_tile_entry]

/-- A clearing point: the buffer ends at the first block's sum. -/
theorem cleared_entry (c : Dev nD) (t : Fin cfg0.N) (h0 : t.val % 4 = 0) (p : Fin 2048) (q : Fin 1024) :
    outsAt0 m c t.val t.isLt (ix2 p q)
      = prefixSum (left m c) (right m c) (2048 * (t.val / 16) + p.val) (1024 * (t.val / 4 % 4) + q.val) (1024 * (t.val % 4 + 1)) := by
  refine (congrFun (outsAt0_A m c t h0) (ix2 p q)).trans ?_
  refine (congrFun (Pieces.clear_then_accumulate (F := Ideal) c (grid0.coords t) (ms0_0 t) (hs0_0 t) (ms0_1 t) (hs0_1 t)
    (ms0_2 t) (hs0_2 t) ((hcond0_0 t).mpr h0) (iblk m c 0 t) (iblk m c 1 t)) (ix2 p q)).trans ?_
  refine (TileProduct.step_entry (k0_pay1 (F := Ideal)) (leftTile m c t) (rightTile m c t) p q).trans ?_
  rw [TileProduct.zero_entry, tile_product_entry, h0]
  exact (prefixSum_first _ _ _ _).symm

/-- A point that does not clear: the buffer gains block `(n + 1) % 4` of the contraction over what point `n` left. -/
theorem carried_entry (c : Dev nD) (n : ℕ) (hn : n + 1 < cfg0.N) (h0 : ¬(n + 1) % 4 = 0) (p : Fin 2048) (q : Fin 1024) :
    outsAt0 m c (n + 1) hn (ix2 p q)
      = outsAt0 m c n (Nat.lt_of_succ_lt hn) (ix2 p q)
        + ∑ d ∈ Finset.range 1024, at2 (left m c) (2048 * ((n + 1) / 16) + p.val) (1024 * ((n + 1) % 4) + d)
            * at2 (right m c) (1024 * ((n + 1) / 4 % 4) + q.val) (1024 * ((n + 1) % 4) + d) := by
  refine (congrFun (outsAt0_B m c ⟨n + 1, hn⟩ h0) (ix2 p q)).trans ?_
  refine (congrFun (Pieces.accumulate (F := Ideal) c (grid0.coords ⟨n + 1, hn⟩) (ms0_0 ⟨n + 1, hn⟩) (hs0_0 ⟨n + 1, hn⟩)
    (ms0_1 ⟨n + 1, hn⟩) (hs0_1 ⟨n + 1, hn⟩) (ms0_2 ⟨n + 1, hn⟩) (hs0_2 ⟨n + 1, hn⟩)
    (fun h => h0 ((hcond0_0 ⟨n + 1, hn⟩).mp h)) (iblk m c 0 ⟨n + 1, hn⟩) (iblk m c 1 ⟨n + 1, hn⟩)
    (outsAt0 m c n (Nat.lt_of_succ_lt hn))) (ix2 p q)).trans ?_
  refine (TileProduct.step_entry (outsAt0 m c n (Nat.lt_of_succ_lt hn)) (leftTile m c ⟨n + 1, hn⟩) (rightTile m c ⟨n + 1, hn⟩) p q).trans ?_
  rw [tile_product_entry]

/-- THE RUNNING TILE after point `n`: at `(p, q)` the contraction of the two rows over the first `1024 * (n % 4 + 1)`
    terms. -/
theorem running_entry (c : Dev nD) : ∀ (n : ℕ) (hn : n < cfg0.N) (p : Fin 2048) (q : Fin 1024),
    outsAt0 m c n hn (ix2 p q)
      = prefixSum (left m c) (right m c) (2048 * (n / 16) + p.val) (1024 * (n / 4 % 4) + q.val) (1024 * (n % 4 + 1)) := by
  intro n
  induction n with
  | zero => exact fun hn p q => cleared_entry m c ⟨0, hn⟩ rfl p q
  | succ n ih =>
    intro hn p q
    by_cases h0 : (n + 1) % 4 = 0
    · exact cleared_entry m c ⟨n + 1, hn⟩ h0 p q
    · rw [carried_entry m c n hn h0 p q, ih (Nat.lt_of_succ_lt hn) p q]
      have e1 : (n + 1) / 16 = n / 16 := by omega
      have e2 : (n + 1) / 4 % 4 = n / 4 % 4 := by omega
      have e3 : (n + 1) % 4 = n % 4 + 1 := by omega
      rw [e1, e2, e3]
      exact (prefixSum_succ _ _ _ _ _).symm

end Cert.KernelIdeal.RunningTile

end
-- ==== Proof.BatchedContraction.lean ====
/-
  The result as one function of the two arguments, and the layout law that joins the two sides.

  The reference contracts the last axis of `x : [4, 4096, 4096]` with the last axis of `w : [4096, 4096]`:
  `out (b, s, e) = ∑ d, x (b, s, d) * w (e, d)` (`rowsTimesTransposed`).  The kernel merges the two leading axes of `x`
  into one of 16384 rows, contracts the resulting matrix with `w` along the shared axis, and splits the rows again.
  Row `4096 * b + s` of the merged matrix is row `(b, s)` of `x`, and entry `(4096 * b + s, e)` of the product becomes
  entry `(b, s, e)` of the result: both reshapes keep an element's row-major position.  So the two are one function
  (`split_contract_merge`).
-/
import Idealize.ShloMosaic.Lib.Pipeline.Value
import Idealize.ShloMosaic.Lib.ValueIdx
import proofs.«137915_j21577915695486_2_alg».proof.Proof.BlockedContraction

noncomputable section

namespace Cert.BatchedContraction

open Idealize.ShloMosaic Idealize.ShloMosaic.ValueIdx Cert.BlockedContraction
open scoped BigOperators

/-- `x · wᵀ` along the last axis, the two leading axes of `x` kept. -/
def rowsTimesTransposed (x : (⟨3, ![4, 4096, 4096]⟩ : Shape).Idx → EReal) (w : (⟨2, ![4096, 4096]⟩ : Shape).Idx → EReal) :
    (⟨3, ![4, 4096, 4096]⟩ : Shape).Idx → EReal :=
  fun i => ∑ d : Fin 4096, x (ix3 (i 0) (i 1) d) * w (ix2 (i 2) d)

/-- Merging the two leading axes, contracting the merged matrix with `w`, and splitting the rows again gives
    `rowsTimesTransposed`. -/
theorem split_contract_merge (x : (⟨3, ![4, 4096, 4096]⟩ : Shape).Idx → EReal) (w : (⟨2, ![4096, 4096]⟩ : Shape).Idx → EReal)
    (hmerge : (⟨3, ![4, 4096, 4096]⟩ : Shape).ShapeCasts ⟨2, ![16384, 4096]⟩)
    (hsplit : (⟨2, ![16384, 4096]⟩ : Shape).ShapeCasts ⟨3, ![4, 4096, 4096]⟩) :
    shapeCast ⟨3, ![4, 4096, 4096]⟩ (contract (shapeCast ⟨2, ![16384, 4096]⟩ x hmerge) w) hsplit
      = rowsTimesTransposed x w := by
  funext i
  obtain ⟨b, s, e, rfl⟩ : ∃ (b : Fin 4) (s : Fin 4096) (e : Fin 4096), i = ix3 b s e := ⟨i 0, i 1, i 2, eq_ix3 i⟩
  have hr : 4096 * b.val + s.val < 16384 := by have := b.isLt; have := s.isLt; omega
  rw [shapeCast_apply _ hsplit (ix3 b s e) (ix2 ⟨4096 * b.val + s.val, hr⟩ e) (by
    rw [Shape.rowMajor_val_two, Shape.rowMajor_val_three]
    show (4096 * b.val + s.val) * 4096 + e.val = (b.val * 4096 + s.val) * 4096 + e.val
    omega)]
  rw [contract_apply]
  refine Finset.sum_congr rfl fun d _ => ?_
  rw [shapeCast_apply x hmerge (ix2 ⟨4096 * b.val + s.val, hr⟩ d) (ix3 b s d) (by
    rw [Shape.rowMajor_val_two, Shape.rowMajor_val_three]
    show (b.val * 4096 + s.val) * 4096 + d.val = (4096 * b.val + s.val) * 4096 + d.val
    omega)]

end Cert.BatchedContraction

end
-- ==== Proof.WholeProduct.lean ====
/-
  From the running tile to the kernel's result.

  The result's staging buffer is written back at the last point of each row of points along the contracted axis
  (`n % 4 = 3`), when it holds the contraction over all `1024 * 4 = 4096` terms: the block written at such a point is
  block `(n / 16, n / 4 % 4)` of the whole contraction `left · rightᵀ` (`written_back`).  The 8 × 4 blocks of 2048 × 1024
  entries tile the [16384, 4096] array — entry `(r, e)` lies in the block written at point
  `16 * (r / 2048) + 4 * (e / 1024) + 3` — so the array ends holding the whole contraction (`result_array`).
  Around the region, the host merges the two leading axes of `x` before it (the change of float format of both operands
  is the identity on extended reals) and splits the result's rows after it, so the program's result is
  `∑ d, x (b, s, d) * w (e, d)` at `(b, s, e)` (`run`).
-/
import proofs.«137915_j21577915695486_2_alg».proof.Proof.Gen.KernelIdeal.Frame
import proofs.«137915_j21577915695486_2_alg».proof.Proof.RunningTile
import proofs.«137915_j21577915695486_2_alg».proof.Proof.BatchedContraction
import Idealize.ShloMosaic.Lib.Pipeline.Value
import Idealize.ShloMosaic.Lib.StableHlo.Run
import Idealize.ShloMosaic.Lib.Tactic

set_option maxRecDepth 16384

noncomputable section

namespace Cert.KernelIdeal.WholeProduct

open Cert.KernelIdeal Cert.KernelIdeal.Gen Idealize.ShloMosaic Idealize.ShloMosaic.TcCoe Idealize.SL.Sem
open Idealize.ShloMosaic.ValueIdx Cert.BlockedContraction Cert.BatchedContraction Cert.KernelIdeal.RunningTile
open Idealize.ShloMosaic.Pipeline (Dat)
open scoped BigOperators

variable (m : (ℓ : Loc nD τ sig) → Buf (Elt Ideal) ℓ) (ρ : Dev nD → PrngReg)

/-- The whole contraction of the two matrices the region finds. -/
abbrev product (c : Dev nD) : (⟨2, ![16384, 4096]⟩ : Shape).Idx → EReal := contract (left m c) (right m c)

/-- After the last point of a row of points the running tile holds the whole contraction's entries. -/
theorem complete_entry (c : Dev nD) (t : Fin cfg0.N) (h3 : t.val % 4 = 3) (p : Fin 2048) (q : Fin 1024)
    (i : (⟨2, ![16384, 4096]⟩ : Shape).Idx) (hi0 : (i 0).val = 2048 * (t.val / 16) + p.val)
    (hi1 : (i 1).val = 1024 * (t.val / 4 % 4) + q.val) :
    outsAt0 m c t.val t.isLt (ix2 p q) = product m c i := by
  rw [running_entry, h3]
  show _ = prefixSum (left m c) (right m c) (i 0).val (i 1).val 4096
  rw [hi0, hi1]

/-- WHAT A WRITING POINT WRITES BACK: its block of the whole contraction. -/
theorem written_back (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, e4, e5⟩ := block_indices t
  show (cfg0.win 2).cut (grid0.coords t) ((dats m 0 c).after 2 t) = _
  rw [after0_2]
  funext y
  obtain ⟨p, q, rfl⟩ : ∃ (p : Fin 2048) (q : Fin 1024), y = ix2 p q := ⟨y 0, y 1, eq_ix2 (n0 := 2048) (n1 := 1024) y⟩
  rw [View.read_apply]
  show outsAt0 m c t.val t.isLt (ix2 p q) = product m c (((cfg0.win 2).blk t).view.emb (ix2 p q))
  refine complete_entry m c t h3 p q _ ?_ ?_
  · show win0_2.index t 0 * 2048 + 1 * p.val = _
    rw [e4]; omega
  · show win0_2.index t 1 * 1024 + 1 * q.val = _
    rw [e5]; omega

/-- An entry of the array is in point `t`'s block iff each coordinate is in the block's range on its axis. -/
theorem mem_block (t : Fin cfg0.N) (i : S16384x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v3).slice (win0_2.rect t)).set ↔ _
  rw [View.set_slice_whole, Rect.mem_set_unit]
  exact Iff.rfl

/-- Every entry of the array lies in the block some writing point writes back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  have ht : 16 * ((i 0).val / 2048) + 4 * ((i 1).val / 1024) + 3 < cfg0.N := by rw [hN]; omega
  obtain ⟨-, -, -, -, e4, e5⟩ := block_indices ⟨_, ht⟩
  refine ⟨⟨_, ht⟩, (flush0_2 _).mpr (by show (16 * ((i 0).val / 2048) + 4 * ((i 1).val / 1024) + 3) % 4 = 3; omega), ?_⟩
  rw [mem_block]
  intro a
  match a with
  | ⟨0, _⟩ =>
    show win0_2.index ⟨_, ht⟩ 0 * 2048 ≤ (i 0).val ∧ (i 0).val < win0_2.index ⟨_, ht⟩ 0 * 2048 + 2048
    rw [e4]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win0_2.index ⟨_, ht⟩ 1 * 1024 ≤ (i 1).val ∧ (i 1).val < win0_2.index ⟨_, ht⟩ 1 * 1024 + 1024
    rw [e5]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- THE RESULT ARRAY after the region: the whole contraction. -/
theorem result_array (c : Dev nD) : (dats m 0 c).arrAt 2 cfg0.N = product m c :=
  (dats m 0 c).arrAt_eq_of_cover 2 (product m c) (written_back m c) covered

/-- The left matrix the region finds is `x` with its two leading axes merged (the change of format is the identity). -/
theorem left_eq (c : Dev nD) :
    left m c = shapeCast S16384x4096 (m ((c : Thread nD τ).loc main_arg0)) shapeCasts_S4x4096x4096_S16384x4096 := by
  show StableHlo.after hostOps0 (fun b => m (c, b)) (Proc.devRef .tc main_v1)
    = truncf (F := Ideal) .bf16 (shapeCast S16384x4096 (m ((c : Thread nD τ).loc main_arg0)) shapeCasts_S4x4096x4096_S16384x4096) bitsLt_bf16_f32
  after_results
  rfl

/-- The right matrix the region finds is `w` (the change of format is the identity). -/
theorem right_eq (c : Dev nD) : right m c = m ((c : Thread nD τ).loc main_arg1) := by
  show StableHlo.after hostOps0 (fun b => m (c, b)) (Proc.devRef .tc main_v2)
    = truncf (F := Ideal) .bf16 (m ((c : Thread nD τ).loc main_arg1)) bitsLt_bf16_f32
  after_results

/-- The program's result: the region's array with its rows split again, which is `x · wᵀ` along the last axis. -/
theorem result_eq (c : Dev nD) :
    Pipeline.afterTail₀ cfgs (dats m) 0 (V0 m) [hostOps1] c main_v4
      = rowsTimesTransposed (m ((c : Thread nD τ).loc main_arg0)) (m ((c : Thread nD τ).loc main_arg1)) := by
  refine Eq.trans ?_ (split_contract_merge (m ((c : Thread nD τ).loc main_arg0)) (m ((c : Thread nD τ).loc main_arg1))
    shapeCasts_S4x4096x4096_S16384x4096 shapeCasts_S16384x4096_S4x4096x4096)
  rw [← left_eq m c, ← right_eq m c]
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = product m c from (Pipeline.withArrays_arr spec0 launch0.win.arr_inj c _ _ 2).trans (result_array m c)]
  rfl

/-- The run, read: the result at `x · wᵀ` along the last axis, the arguments unchanged. -/
theorem run : θ_run defs (onTc (τ := τ) (main (F := Ideal))) ⟨m, fun _ => 0, ρ⟩ fun r => ∀ c : Dev nD,
      r.2.mem ((c.tc : Thread nD τ).loc main_v4)
        = rowsTimesTransposed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.WholeProduct

end
-- ==== Proof.ReferenceValue.lean ====
/-
  The reference's result as the same function of the arguments.

  The reference is one contraction of the last axis of `x` with the last axis of `w`, its two free axes of `x` first and
  the free axis of `w` last: at `(b, s, e)` it is `∑ d, x (b, s, d) * w (e, d)`.
-/
import proofs.«137915_j21577915695486_2_alg».proof.Proof.Gen.ReferenceIdeal.Read
import proofs.«137915_j21577915695486_2_alg».proof.Proof.BatchedContraction

noncomputable section

namespace Cert.ReferenceIdeal.RefValue

open Cert.ReferenceIdeal Cert.ReferenceIdeal.Read Idealize.ShloMosaic Idealize.ShloMosaic.ValueIdx Cert.BatchedContraction
open scoped BigOperators

/-- The reference's one operation is `x · wᵀ` along the last axis. -/
theorem result_eq (x : (⟨S4x4096x4096, .f32⟩ : BufTy).Contents (Elt Ideal)) (w : (⟨S4096x4096, .f32⟩ : BufTy).Contents (Elt Ideal)) :
    val_main_v0 (F := Ideal) x w = rowsTimesTransposed x w := by
  funext i
  rw [val_main_v0_apply]
  refine Finset.sum_congr rfl fun k _ => ?_
  have el : lidx_main_v0 i k = ix3 (i 0) (i 1) k := funext fun a => Fin.ext (by
    match a with
    | ⟨0, _⟩ => rfl
    | ⟨1, _⟩ => rfl
    | ⟨2, _⟩ => rfl)
  have er : ridx_main_v0 i k = ix2 (i 2) k := funext fun a => Fin.ext (by
    match a with
    | ⟨0, _⟩ => rfl
    | ⟨1, _⟩ => rfl)
  rw [el, er]
  rfl

end Cert.ReferenceIdeal.RefValue

end
-- ==== Proof.lean ====
/-
  The kernel computes `einsum("bsd,ed->bse", x, w)` for `x : [4, 4096, 4096]` and `w : [4096, 4096]` as a blocked matrix
  product: the two leading axes of `x` are merged into 16384 rows, the product with `wᵀ` is cut into 8 × 4 tiles of
  2048 × 1024 entries, and each tile is accumulated over 4 blocks of 1024 terms of the contracted axis in a buffer that
  is cleared at the first block and written back after the last.  The reference is the one contraction.

  On the extended reals a change of float format is the identity and a sum may be split into consecutive blocks and
  re-associated freely (the extended reals are a commutative additive monoid; no term has to be finite), so both
  programs end at `out (b, s, e) = ∑ d, x (b, s, d) * w (e, d)`:
    • BlockedContraction — the contraction over a prefix of the contracted axis, one block of 1024 terms at a time;
    • TileProduct — one step of the body: the running tile plus the product of the two tiles, entry by entry;
    • Pieces, RunningTile — the result's staging buffer after each grid point, by induction on the point;
    • WholeProduct — the tiles written back cover the array; the host's reshapes around the region;
    • BatchedContraction, ReferenceValue — the result as one function of `x` and `w`, for both programs.
  The three programs' runs (termination, no fault, arguments unchanged) are the generated frames and the generated run
  of the reference; the idealization rewrote nothing.
-/
import proofs.«137915_j21577915695486_2_alg».proof.Defs
import proofs.«137915_j21577915695486_2_alg».proof.Proof.Gen.Kernel
import proofs.«137915_j21577915695486_2_alg».proof.Proof.Gen.Kernel.Frame
import proofs.«137915_j21577915695486_2_alg».proof.Proof.Gen.KernelIdeal
import proofs.«137915_j21577915695486_2_alg».proof.Proof.Gen.KernelIdeal.Frame
import proofs.«137915_j21577915695486_2_alg».proof.Proof.Gen.ReferenceIdeal
import proofs.«137915_j21577915695486_2_alg».proof.Proof.Gen.Pre_finite_inputs
import proofs.«137915_j21577915695486_2_alg».proof.Proof.Gen.ReferenceIdeal.Run
import proofs.«137915_j21577915695486_2_alg».proof.Proof.Gen.ReferenceIdeal.Read
import proofs.«137915_j21577915695486_2_alg».proof.Proof.WholeProduct
import proofs.«137915_j21577915695486_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, both programs end at `∑ d, x (b, s, d) * w (e, d)` at every `(b, s, e)`. -/
theorem algebraic : Cert.algebraic_KernelIdeal_ReferenceIdeal := by
  intro m ρ m' ρ' _ hagree
  refine ⟨fun c => Cert.BatchedContraction.rowsTimesTransposed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
